-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 86
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x256, .bf16⟩
  | .hbm, ⟨40, _⟩ => ⟨S256x128, .bf16⟩
  | .hbm, ⟨41, _⟩ => ⟨S100000x128, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x128, .bf16⟩
  | .hbm, ⟨65, _⟩ => ⟨S128x64, .bf16⟩
  | .hbm, ⟨66, _⟩ => ⟨S100000x64, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x64, .f32⟩
  | .hbm, ⟨76, _⟩ => ⟨S1700000x1, .f32⟩
  | .hbm, ⟨77, _⟩ => ⟨S1700000x64, .f32⟩
  | .hbm, ⟨78, _⟩ => ⟨S1700000x64, .f32⟩
  | .hbm, ⟨79, _⟩ => ⟨S_, .f32⟩
  | .hbm, ⟨80, _⟩ => ⟨S100000x64, .f32⟩
  | .hbm, ⟨81, _⟩ => ⟨S1700000x1, .i32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x64, .f32⟩
  | .local _ .vmem, ⟨0, _⟩ => ⟨S5000x256, .bf16⟩
  | .local _ .vmem, ⟨1, _⟩ => ⟨S5000x256, .bf16⟩
  | .local _ .vmem, ⟨2, _⟩ => ⟨S256x128, .bf16⟩
  | .local _ .vmem, ⟨3, _⟩ => ⟨S5000x128, .f32⟩
  | .local _ .vmem, ⟨4, _⟩ => ⟨S5000x128, .f32⟩
  | .local _ .vmem, ⟨5, _⟩ => ⟨S5000x128, .bf16⟩
  | .local _ .vmem, ⟨6, _⟩ => ⟨S5000x128, .bf16⟩
  | .local _ .vmem, ⟨7, _⟩ => ⟨S128x64, .bf16⟩
  | .local _ .vmem, ⟨8, _⟩ => ⟨S5000x64, .f32⟩
  | .local _ .vmem, ⟨9, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call0_cst : Ref sig .tc := ⟨.hbm, 61, rfl⟩
abbrev main_call0_v0 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_7 : Ref sig .tc := ⟨.hbm, 67, rfl⟩
abbrev main_v50 : Ref sig .tc := ⟨.hbm, 68, rfl⟩
abbrev main_v51 : Ref sig .tc := ⟨.hbm, 69, rfl⟩
abbrev main_c_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_9 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .bf16 = 32 ∨ (Rect.block (s := S100000x256) S5000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .bf16 = 32 ∨ (Rect.block (s := S100000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .bf16 = 32 ∨ (Rect.block (s := S128x64) S128x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_v27) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000x128 : Shape := ⟨2, ![100000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 115
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000x128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x64, .f32⟩
  | .hbm, ⟨63, _⟩ => ⟨S100000, .i32⟩
  | .hbm, ⟨64, _⟩ => ⟨S1x1600000, .i32⟩
  | .hbm, ⟨65, _⟩ => ⟨S1600000, .i32⟩
  | .hbm, ⟨66, _⟩ => ⟨S1700000, .i32⟩
  | .hbm, ⟨67, _⟩ => ⟨S1x1600000, .i32⟩
  | .hbm, ⟨68, _⟩ => ⟨S1600000, .i32⟩
  | .hbm, ⟨69, _⟩ => ⟨S1700000, .i32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S100000, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000, .f32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000x64, .f32⟩
  | .hbm, ⟨105, _⟩ => ⟨S1700000x1, .f32⟩
  | .hbm, ⟨106, _⟩ => ⟨S1700000x64, .f32⟩
  | .hbm, ⟨107, _⟩ => ⟨S1700000x64, .f32⟩
  | .hbm, ⟨108, _⟩ => ⟨S_, .f32⟩
  | .hbm, ⟨109, _⟩ => ⟨S100000x64, .f32⟩
  | .hbm, ⟨110, _⟩ => ⟨S1700000x1, .i32⟩
  | .hbm, ⟨111, _⟩ => ⟨S100000x64, .f32⟩
  | .hbm, ⟨112, _⟩ => ⟨S1x64, .f32⟩
  | .hbm, ⟨113, _⟩ => ⟨S100000x64, .f32⟩
  | .hbm, ⟨114, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_9 : Ref sig .tc := ⟨.hbm, 77, rfl⟩
abbrev main_v58 : Ref sig .tc := ⟨.hbm, 78, rfl⟩
abbrev main_v59 : Ref sig .tc := ⟨.hbm, 79, rfl⟩
abbrev main_c_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_11 : Ref sig .tc := ⟨.hbm, 86, rfl⟩
abbrev main_v65 : Ref sig .tc := ⟨.hbm, 87, rfl⟩
abbrev main_v66 : Ref sig .tc := ⟨.hbm, 88, rfl⟩
abbrev main_c_12 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_13 : Ref sig .tc := ⟨.hbm, 96, rfl⟩
abbrev main_v73 : Ref sig .tc := ⟨.hbm, 97, rfl⟩
abbrev main_v74 : Ref sig .tc := ⟨.hbm, 98, rfl⟩
abbrev main_c_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_15 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result named.

  The program is seven segments: host operations, the first row-blocked product, host operations (three
  stretches, the middle one the rectifier's), the second row-blocked product, host operations. Every weakly
  fair execution terminates, nothing faults, the six argument arrays end as launched, and the result array ends
  at the contents `W7 m ρ c` the last boundary gives it: the fold of the seven segments from the launch memory.
  What that fold is, as a function of the arguments, is read in the modules that follow.
-/
import proofs.«124159_j6691559047384_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents and the argument arrays end as launched. The last thread state holds every unscoped
    buffer at `W7 m ρ c`; reading it against the final state gives the result beside the arguments. -/
theorem run_result : θ_run defs (onTc (τ := τ) (main (F := F))) ⟨m, fun _ => 0, ρ⟩ (fun r => ∀ c : Dev nD,
      r.2.mem ((c.tc : Thread nD τ).loc main_v65) = W7 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v65 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Whole

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«124159_j6691559047384_1_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.Products.lean ====
/-
  The two row-blocked products, as whole arrays.

  Each of the program's two kernels multiplies a tall array by a small one, one block of 5000 rows per grid
  point: the point's block of the left operand (all its columns) times the whole right operand, written to the
  same block of rows of the output. Since a row of a product depends only on that row of the left operand, the
  twenty blocks written back are the twenty blocks of rows of the ONE product of the whole arrays, and they tile
  the output: after the run the output array holds, at (r, j), the sum over k of left (r, k) · right (k, j).

  Stated for the arrays as the region finds them (`V`), whatever wrote them.
-/
import proofs.«124159_j6691559047384_1_alg».proof.Proof.Gen.KernelIdeal.Frame
import proofs.«124159_j6691559047384_1_alg».proof.Proof.LibRowsCols
import Idealize.ShloMosaic.Lib.Pipeline.Value

set_option maxRecDepth 16384

noncomputable section

namespace Cert.KernelIdeal.Whole

open Cert.KernelIdeal Cert.KernelIdeal.Gen Cert.Dense
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

/-! ## The first product: [100000, 256] · [256, 128] -/

/-- The first kernel's contraction is rows times columns. -/
theorem rowsCols0 : RowsCols (R := 5000) (K := 256) (N := 128) dot_S5000x256_S256x128_S5000x128_1_0_0_1_n_n :=
  ⟨rfl, rfl, fun _ _ => rfl, fun _ _ => rfl, fun _ _ => rfl, fun _ _ => rfl⟩

/-- What the first kernel's body stores, at an entry: the block of rows times the right operand. -/
theorem body0_apply (x0 : Vec Ideal S5000x256 .bf16) (x1 : Vec Ideal S256x128 .bf16) (j : S5000x128.Idx) :
    k0_pay1 x0 x1 j = rowsTimes (M := 5000) (K := 256) (N := 128) x0 x1 j := by
  unfold k0_pay1
  rw [shapeCast_self, shapeCast_self]
  exact matmul_zero_apply rowsCols0 none x0 x1 j

/-- Where the first kernel's windows sit at each of the twenty points: the left operand's and the output's
    blocks of rows move together (block `t` at point `t`), all columns; the right operand is whole. -/
theorem where0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` of the first kernel writes back is block `t` (of rows) of the whole product of the two arrays as
    the region finds them: the left operand's block is those rows, the right operand's block is all of it. -/
theorem flushed0 (c : Dev nD) (t : Fin cfg0.N) :
    (dat0 V c).flushed 2 t = ((cfg0.win 2).blk t).view.read (Elt Ideal)
      (fun i => rowsTimes (M := 100000) (K := 256) (N := 128) (V c main_v27) (V c main_v28) i) := by
  show (cfg0.win 2).cut (grid0.coords t) ((dat0 V c).after 2 t) = _
  rw [after0_2]
  unfold out0_2
  rw [View.canon_unit_zero zeros2]
  simp only [View.ld_unit_zero (S := S5000x256) zeros2, View.ld_unit_zero (S := S256x128) zeros2]
  obtain ⟨e0, e1, e2, e3, e4, e5⟩ := where0 t
  funext j
  show k0_pay1 (iblk0 V c 0 t) (iblk0 V c 1 t) j
    = rowsTimes (M := 100000) (K := 256) (N := 128) (V c main_v27) (V c main_v28) (((cfg0.win 2).blk t).view.emb j)
  refine (body0_apply (iblk0 V c 0 t) (iblk0 V c 1 t) j).trans ?_
  refine rowsTimes_of_rows (M := 100000) (R := 5000) (K := 256) (N := 128) (N' := 128) (V c main_v27) (V c main_v28)
    (iblk0 V c 0 t) (iblk0 V c 1 t) j (((cfg0.win 2).blk t).view.emb j) (fun k => ?_) (fun k => ?_)
  · show V c main_v27 (((cfg0.win 0).blk t).view.emb (ix2 (j 0 : Fin 5000) k)) = V c main_v27 (ix2 _ k)
    refine congrArg (V c main_v27) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  · show V c main_v28 (((cfg0.win 1).blk t).view.emb (ix2 k (j 1 : Fin 128))) = V c main_v28 (ix2 k _)
    refine congrArg (V c main_v28) ?_
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega

/-- An entry of the output lies in point `t`'s block iff each coordinate lies in the block's range. -/
theorem mem_block0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v29).slice (win0_2.rect t)).set ↔ _
  rw [View.set_slice_whole, Rect.mem_set_unit]
  exact Iff.rfl

/-- The twenty blocks of rows tile the output: row `r` is in the block of point `r / 5000`. -/
theorem tiled0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by omega⟩, flush0_2 _, ?_⟩
  rw [mem_block0]
  obtain ⟨e0, e1, e2, e3, e4, e5⟩ := where0 ⟨(i 0).val / 5000, by omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- THE FIRST PRODUCT: after the region its output array is the product of the two arrays the region found. -/
theorem product0 (c : Dev nD) :
    (dat0 V c).arrAt 2 cfg0.N
      = fun i => rowsTimes (M := 100000) (K := 256) (N := 128) (V c main_v27) (V c main_v28) i :=
  (dat0 V c).arrAt_eq_of_cover 2 _ (fun t _ => flushed0 V c t) (tiled0)

/-! ## The second product: [100000, 128] · [128, 64] -/

/-- The second kernel's contraction is rows times columns. -/
theorem rowsCols1 : RowsCols (R := 5000) (K := 128) (N := 64) dot_S5000x128_S128x64_S5000x64_1_0_0_1_n_n :=
  ⟨rfl, rfl, fun _ _ => rfl, fun _ _ => rfl, fun _ _ => rfl, fun _ _ => rfl⟩

/-- What the second kernel's body stores, at an entry: the block of rows times the right operand. -/
theorem body1_apply (x0 : Vec Ideal S5000x128 .bf16) (x1 : Vec Ideal S128x64 .bf16) (j : S5000x64.Idx) :
    k1_pay1 x0 x1 j = rowsTimes (M := 5000) (K := 128) (N := 64) x0 x1 j := by
  unfold k1_pay1
  rw [shapeCast_self, shapeCast_self]
  exact matmul_zero_apply rowsCols1 none x0 x1 j

/-- Where the second kernel's windows sit at each of the twenty points: as for the first. -/
theorem where1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` of the second kernel writes back is block `t` (of rows) of the whole product of the two arrays as
    the region finds them: the left operand's block is those rows, the right operand's block is all of it. -/
theorem flushed1 (c : Dev nD) (t : Fin cfg1.N) :
    (dat1 V c).flushed 2 t = ((cfg1.win 2).blk t).view.read (Elt Ideal)
      (fun i => rowsTimes (M := 100000) (K := 128) (N := 64) (V c main_v47) (V c main_v48) i) := by
  show (cfg1.win 2).cut (grid1.coords t) ((dat1 V c).after 2 t) = _
  rw [after1_2]
  unfold out1_2
  rw [View.canon_unit_zero zeros2]
  simp only [View.ld_unit_zero (S := S5000x128) zeros2, View.ld_unit_zero (S := S128x64) zeros2]
  obtain ⟨e0, e1, e2, e3, e4, e5⟩ := where1 t
  funext j
  show k1_pay1 (iblk1 V c 0 t) (iblk1 V c 1 t) j
    = rowsTimes (M := 100000) (K := 128) (N := 64) (V c main_v47) (V c main_v48) (((cfg1.win 2).blk t).view.emb j)
  refine (body1_apply (iblk1 V c 0 t) (iblk1 V c 1 t) j).trans ?_
  refine rowsTimes_of_rows (M := 100000) (R := 5000) (K := 128) (N := 64) (N' := 64) (V c main_v47) (V c main_v48)
    (iblk1 V c 0 t) (iblk1 V c 1 t) j (((cfg1.win 2).blk t).view.emb j) (fun k => ?_) (fun k => ?_)
  · show V c main_v47 (((cfg1.win 0).blk t).view.emb (ix2 (j 0 : Fin 5000) k)) = V c main_v47 (ix2 _ k)
    refine congrArg (V c main_v47) ?_
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  · show V c main_v48 (((cfg1.win 1).blk t).view.emb (ix2 k (j 1 : Fin 64))) = V c main_v48 (ix2 k _)
    refine congrArg (V c main_v48) ?_
    funext a; apply Fin.ext
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega

/-- An entry of the output lies in point `t`'s block iff each coordinate lies in the block's range. -/
theorem mem_block1 (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v49).slice (win1_2.rect t)).set ↔ _
  rw [View.set_slice_whole, Rect.mem_set_unit]
  exact Iff.rfl

/-- The twenty blocks of rows tile the output: row `r` is in the block of point `r / 5000`. -/
theorem tiled1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  refine ⟨⟨(i 0).val / 5000, by omega⟩, flush1_2 _, ?_⟩
  rw [mem_block1]
  obtain ⟨e0, e1, e2, e3, e4, e5⟩ := where1 ⟨(i 0).val / 5000, by omega⟩
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000; omega
  | ⟨1, _⟩ =>
    show win1_2.index _ (1 : Fin 2) * 64 ≤ (i 1).val ∧ (i 1).val < win1_2.index _ (1 : Fin 2) * 64 + 64
    rw [e5]; omega

/-- THE SECOND PRODUCT: after the region its output array is the product of the two arrays the region found. -/
theorem product1 (c : Dev nD) :
    (dat1 V c).arrAt 2 cfg1.N
      = fun i => rowsTimes (M := 100000) (K := 128) (N := 64) (V c main_v47) (V c main_v48) i :=
  (dat1 V c).arrAt_eq_of_cover 2 _ (fun t _ => flushed1 V c t) (tiled1)

end Cert.KernelIdeal.Whole

end
-- ==== Proof.Graph.lean ====
/-
  What the host operations around the two products compute, as functions of arrays.

  The graph has 100000 nodes and 1600000 edges; row 0 of the edge array holds each edge's source node, row 1 its
  destination. Every node also gets a self-loop, so the lists of sources and destinations have 1700000 entries:
  the edges' ends followed by 0 … 99999. An entry read as a node number is first normalised (a negative number
  has 100000 added) and laid as a one-entry row, the form in which it indexes a gather or a scatter.

    deg n      = the number of list positions e whose destination is n            (a scatter-add of ones)
    norm e     = deg(src e)^(-1/2) · deg(dst e)^(-1/2)
    spread h b = at node n, feature j:  (∑ over positions e with destination n of h (src e, j) · norm e) + b j

  `spread` is written once for 128 features and once for 64. Between the two layers the features pass through
  `max · 0`. These are the programs' own operations in the programs' own order; nothing is simplified here.
-/
import proofs.«124159_j6691559047384_1_alg».proof.Proof.Gen.KernelIdeal
import Idealize.ShloMosaic.PureOps.Ideal

noncomputable section

namespace Cert.KernelIdeal.Whole

open Cert.KernelIdeal Cert.KernelIdeal.Facts₀ Cert.KernelIdeal.Facts Idealize.ShloMosaic

/-- Arrays of node numbers. -/
abbrev Ints (S : Shape) : Type := IVec S 32
/-- Arrays of extended reals kept as f32. -/
abbrev Reals (S : Shape) : Type := FVec Ideal S .f32

/-- The self-loops' node numbers 0 … 99999. -/
def loops : Ints S100000 := iotaInDim S100000 32 0

/-- The sources: row 0 of the edge array, then the self-loops. -/
def srcOf (ei : Ints S2x1600000) : Ints S1700000 :=
  concatenate S1700000 0 [⟨S1600000, shapeCast _ (extractStridedSlice S1x1600000 ![0, 0] ei slices_S2x1600000_S1x1600000_0_0) shapeCasts_S1x1600000_S1600000⟩,
    ⟨S100000, loops⟩] concatenates_S1600000_S100000_S1700000_d0

/-- The destinations: row 1 of the edge array, then the self-loops. -/
def dstOf (ei : Ints S2x1600000) : Ints S1700000 :=
  concatenate S1700000 0 [⟨S1600000, shapeCast _ (extractStridedSlice S1x1600000 ![1, 0] ei slices_S2x1600000_S1x1600000_1_0) shapeCasts_S1x1600000_S1600000⟩,
    ⟨S100000, loops⟩] concatenates_S1600000_S100000_S1700000_d0

/-- A list of node numbers as one-entry rows. -/
def asRows (v : Ints S1700000) : Ints S1700000x1 := broadcastInDim S1700000x1 ![0] bcast_S1700000_S1700000x1_0 v

/-- A list of node numbers normalised for indexing (a negative one has 100000 added), as one-entry rows. -/
def asIndex (v : Ints S1700000) : Ints S1700000x1 :=
  asRows (select (cmpi .slt v (broadcastInDim S1700000 ![] bcast_S_S1700000 (constantI S_ 32 0#32)))
    (addi v (broadcastInDim S1700000 ![] bcast_S_S1700000 (constantI S_ 32 100000#32))) v)

/-- `deg^(-1/2)` per node: ones scatter-added at the destinations, then the reciprocal square root. -/
def invSqrtDeg (dst : Ints S1700000) : Reals S100000 :=
  Host.rsqrt (Host.scatterAdd scatter_S100000_S1700000x1_S1700000_n_0_0_1
    (broadcastInDim S100000 ![] bcast_S_S100000 (constant (F := Ideal) S_ .f32 0x00000000#32)) (asRows dst)
    (broadcastInDim S1700000 ![] bcast_S_S1700000 (constant (F := Ideal) S_ .f32 0x3F800000#32)))

/-- The weight of each list position: `deg(src)^(-1/2) · deg(dst)^(-1/2)`. -/
def normOf (src dst : Ints S1700000) : Reals S1700000 :=
  mulf (Host.gather gather_S100000_S1700000x1_S1700000_n_0_n_n_0_1_1 (invSqrtDeg dst) (asIndex src))
    (Host.gather gather_S100000_S1700000x1_S1700000_n_0_n_n_0_1_1 (invSqrtDeg dst) (asIndex dst))

/-- One aggregation over 128 features: gather the sources' rows, weight them, scatter-add them at the
    destinations, add the bias row. -/
def spread128 (src dst : Ints S1700000) (norm : Reals S1700000) (h : Reals S100000x128) (b : Reals S128) : Reals S100000x128 :=
  addf (Host.scatterAdd scatter_S100000x128_S1700000x1_S1700000x128_1_0_0_1
      (broadcastInDim S100000x128 ![] bcast_S_S100000x128 (constant (F := Ideal) S_ .f32 0x00000000#32)) (asRows dst)
      (mulf (Host.gather gather_S100000x128_S1700000x1_S1700000x128_1_0_n_n_0_1_1128 h (asIndex src))
        (broadcastInDim S1700000x128 ![0, 1] bcast_S1700000x1_S1700000x128_0_1
          (broadcastInDim S1700000x1 ![0] bcast_S1700000_S1700000x1_0 norm))))
    (broadcastInDim S100000x128 ![0, 1] bcast_S1x128_S100000x128_0_1 (broadcastInDim S1x128 ![1] bcast_S128_S1x128_1 b))

/-- The same aggregation over 64 features. -/
def spread64 (src dst : Ints S1700000) (norm : Reals S1700000) (h : Reals S100000x64) (b : Reals S64) : Reals S100000x64 :=
  addf (Host.scatterAdd scatter_S100000x64_S1700000x1_S1700000x64_1_0_0_1
      (broadcastInDim S100000x64 ![] bcast_S_S100000x64 (constant (F := Ideal) S_ .f32 0x00000000#32)) (asRows dst)
      (mulf (Host.gather gather_S100000x64_S1700000x1_S1700000x64_1_0_n_n_0_1_164 h (asIndex src))
        (broadcastInDim S1700000x64 ![0, 1] bcast_S1700000x1_S1700000x64_0_1
          (broadcastInDim S1700000x1 ![0] bcast_S1700000_S1700000x1_0 norm))))
    (broadcastInDim S100000x64 ![0, 1] bcast_S1x64_S100000x64_0_1 (broadcastInDim S1x64 ![1] bcast_S64_S1x64_1 b))

/-- The rectifier between the layers: the maximum with zero, entry by entry. -/
def rectify (h : Reals S100000x128) : Reals S100000x128 :=
  maximumf h (broadcastInDim S100000x128 ![] bcast_S_S100000x128 (constant (F := Ideal) S_ .f32 0x00000000#32))

/-- The change of format from f32 to bf16 that precedes each product: on the extended reals, the identity. -/
def narrow (S : Shape) (x : Reals S) : FVec Ideal S .bf16 := truncf .bf16 x Facts₀.bitsLt_bf16_f32

theorem narrow_apply (S : Shape) (x : Reals S) (i : S.Idx) : narrow S x i = x i := rfl

end Cert.KernelIdeal.Whole

end
-- ==== Proof.Stretches.lean ====
/-
  The program's five stretches of host operations, each read as a function of what it finds.

  A stretch is run from some contents `X` of the buffers; what a buffer holds afterwards is the composition of
  the operations that lead to it, applied to what `X` held at the buffers the stretch reads, and a buffer the
  stretch does not write holds what `X` held. Stated for ANY `X`, so that each can be used at the boundary where
  its stretch starts:

    before the first product : the sources, the destinations and the weights from the edge array; the first
                               product's operands are the node features and the first weight matrix;
    between the products     : the first aggregation (128 features) of the first product, the rectifier;
                               the second product's operands are that and the second weight matrix;
    after the second product : the second aggregation (64 features) of the second product.
-/
import proofs.«124159_j6691559047384_1_alg».proof.Proof.Gen.KernelIdeal.Launch
import proofs.«124159_j6691559047384_1_alg».proof.Proof.Graph
import Idealize.ShloMosaic.Lib.StableHlo.Run

set_option maxRecDepth 16384

noncomputable section

namespace Cert.KernelIdeal.Whole

open Cert.KernelIdeal Cert.KernelIdeal.Gen Cert.KernelIdeal.Facts₀ Cert.KernelIdeal.Facts
open Idealize.ShloMosaic Idealize.ShloMosaic.TcCoe Idealize.ShloMosaic.StableHlo

variable (X : Valuation τ sig (Elt Ideal))

/-! ## Before the first product -/

/-- The list of sources is the edge array's row 0 followed by the self-loops. -/
theorem first_src : after (hostOps0 (F := Ideal)) X (Proc.devRef .tc main_v3) = srcOf (X (Proc.devRef .tc main_arg1)) := by
  after_results; rfl

/-- The list of destinations is the edge array's row 1 followed by the self-loops. -/
theorem first_dst : after (hostOps0 (F := Ideal)) X (Proc.devRef .tc main_v6) = dstOf (X (Proc.devRef .tc main_arg1)) := by
  after_results; rfl

/-- The weights are `deg(src)^(-1/2) · deg(dst)^(-1/2)` of those two lists. -/
theorem first_norm : after (hostOps0 (F := Ideal)) X (Proc.devRef .tc main_v26)
    = normOf (srcOf (X (Proc.devRef .tc main_arg1))) (dstOf (X (Proc.devRef .tc main_arg1))) := by
  after_results_simp <;> rfl

/-- The first product's left operand is the node features, in the narrower format. -/
theorem first_left : after (hostOps0 (F := Ideal)) X (Proc.devRef .tc main_v27)
    = narrow S100000x256 (X (Proc.devRef .tc main_arg0)) := by
  after_results; rfl

/-- Its right operand is the first weight matrix, in the narrower format. -/
theorem first_right : after (hostOps0 (F := Ideal)) X (Proc.devRef .tc main_v28)
    = narrow S256x128 (X (Proc.devRef .tc main_arg2)) := by
  after_results; rfl

/-- The stretch writes neither bias nor the second weight matrix. -/
theorem first_arg3 : after (hostOps0 (F := Ideal)) X (Proc.devRef .tc main_arg3) = X (Proc.devRef .tc main_arg3) := by
  after_results

theorem first_arg4 : after (hostOps0 (F := Ideal)) X (Proc.devRef .tc main_arg4) = X (Proc.devRef .tc main_arg4) := by
  after_results

theorem first_arg5 : after (hostOps0 (F := Ideal)) X (Proc.devRef .tc main_arg5) = X (Proc.devRef .tc main_arg5) := by
  after_results

/-! ## Between the products: the aggregation, the rectifier, the change of format -/

set_option maxHeartbeats 1000000 in
/-- The first aggregation, of whatever the first product left, with the lists and weights found. -/
theorem agg_out : after (hostOps1 (F := Ideal)) X (Proc.devRef .tc main_v45)
    = spread128 (X (Proc.devRef .tc main_v3)) (X (Proc.devRef .tc main_v6)) (X (Proc.devRef .tc main_v26))
        (X (Proc.devRef .tc main_v29)) (X (Proc.devRef .tc main_arg3)) := by
  after_results_simp <;> rfl

/-- The rectifier's three operations: the maximum with a block of zeros. -/
theorem rect_out : after (hostOps1_1 (F := Ideal)) X (Proc.devRef .tc main_v46) = rectify (X (Proc.devRef .tc main_v45)) := by
  after_results_simp <;> rfl

/-- The second product's left operand is the rectified features, in the narrower format. -/
theorem narrow_left : after (hostOps1_2 (F := Ideal)) X (Proc.devRef .tc main_v47)
    = narrow S100000x128 (X (Proc.devRef .tc main_v46)) := by
  after_results; rfl

/-- Its right operand is the second weight matrix, in the narrower format. -/
theorem narrow_right : after (hostOps1_2 (F := Ideal)) X (Proc.devRef .tc main_v48)
    = narrow S128x64 (X (Proc.devRef .tc main_arg4)) := by
  after_results; rfl

/-- The aggregation and the rectifier do not write the second weight matrix … -/
theorem mid_arg4 : after (hostOps1_1 (F := Ideal)) (after (hostOps1 (F := Ideal)) X) (Proc.devRef .tc main_arg4)
    = X (Proc.devRef .tc main_arg4) := by
  after_results_simp

/-- … and none of the three stretches writes the lists, the weights or the second bias. -/
theorem mid_src : after (hostOps1_2 (F := Ideal)) (after (hostOps1_1 (F := Ideal)) (after (hostOps1 (F := Ideal)) X)) (Proc.devRef .tc main_v3)
    = X (Proc.devRef .tc main_v3) := by
  after_results_simp

theorem mid_dst : after (hostOps1_2 (F := Ideal)) (after (hostOps1_1 (F := Ideal)) (after (hostOps1 (F := Ideal)) X)) (Proc.devRef .tc main_v6)
    = X (Proc.devRef .tc main_v6) := by
  after_results_simp

theorem mid_norm : after (hostOps1_2 (F := Ideal)) (after (hostOps1_1 (F := Ideal)) (after (hostOps1 (F := Ideal)) X)) (Proc.devRef .tc main_v26)
    = X (Proc.devRef .tc main_v26) := by
  after_results_simp

theorem mid_arg5 : after (hostOps1_2 (F := Ideal)) (after (hostOps1_1 (F := Ideal)) (after (hostOps1 (F := Ideal)) X)) (Proc.devRef .tc main_arg5)
    = X (Proc.devRef .tc main_arg5) := by
  after_results_simp

/-! ## After the second product -/

set_option maxHeartbeats 1000000 in
/-- The second aggregation, of whatever the second product left, with the lists and weights found. -/
theorem last_out : after (hostOps2 (F := Ideal)) X (Proc.devRef .tc main_v65)
    = spread64 (X (Proc.devRef .tc main_v3)) (X (Proc.devRef .tc main_v6)) (X (Proc.devRef .tc main_v26))
        (X (Proc.devRef .tc main_v49)) (X (Proc.devRef .tc main_arg5)) := by
  after_results_simp <;> rfl

end Cert.KernelIdeal.Whole

end
-- ==== Proof.Layers.lean ====
/-
  The function both programs compute: two graph-convolution layers.

    gcn x ei w1 b1 w2 b2 = spread₆₄ ( max (spread₁₂₈ (x · w1) + b1) 0 · w2 ) + b2

  where `·` is the product of arrays (the sum over k of left (r, k) · right (k, j)), `spread` gathers each list
  position's source row, weights it by `deg(src)^(-1/2) · deg(dst)^(-1/2)`, adds it into the destination's row
  and adds the bias, and the sources, destinations and weights are those of the edge array `ei` with a
  self-loop at every node.
-/
import proofs.«124159_j6691559047384_1_alg».proof.Proof.Graph
import proofs.«124159_j6691559047384_1_alg».proof.Proof.LibRowsTimes

noncomputable section

namespace Cert.KernelIdeal.Whole

open Cert.KernelIdeal Cert.Dense Idealize.ShloMosaic

/-- The two layers, as one function of the six argument arrays. -/
def gcn (x : Reals S100000x256) (ei : Ints S2x1600000) (w1 : Reals S256x128) (b1 : Reals S128) (w2 : Reals S128x64)
    (b2 : Reals S64) : Reals S100000x64 :=
  spread64 (srcOf ei) (dstOf ei) (normOf (srcOf ei) (dstOf ei))
    (rowsTimes (M := 100000) (K := 128) (N := 64)
      (rectify (spread128 (srcOf ei) (dstOf ei) (normOf (srcOf ei) (dstOf ei))
        (rowsTimes (M := 100000) (K := 256) (N := 128) x w1) b1)) w2) b2

end Cert.KernelIdeal.Whole

end
-- ==== Proof.KernelValue.lean ====
/-
  The idealized kernel's result is the two layers of its arguments.

  The result array ends at the contents the last of the program's boundaries gives it. Reading backwards:
  the last stretch of host operations makes it the second aggregation of the second product's output; that
  output is the product of the two arrays the region found; the left one is the rectified first aggregation of
  the first product's output (a change of float format apart: the identity on the extended reals), the right one
  the second weight matrix; the first product's output is the product of the node features and the first weight
  matrix; and the sources, destinations and weights every aggregation uses were computed once, before the first
  product, from the edge array, and no later segment writes them.
-/
import proofs.«124159_j6691559047384_1_alg».proof.Proof.Gen.KernelIdeal.Frame
import proofs.«124159_j6691559047384_1_alg».proof.Proof.Products
import proofs.«124159_j6691559047384_1_alg».proof.Proof.Stretches
import proofs.«124159_j6691559047384_1_alg».proof.Proof.Layers

set_option maxRecDepth 16384

noncomputable section

namespace Cert.KernelIdeal.Whole

open Cert.KernelIdeal Cert.KernelIdeal.Gen Cert.Dense
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## When the first product is entered -/

theorem src1 : W1 m ρ c (Proc.devRef .tc main_v3) = srcOf (m ((c : Thread nD τ).loc main_arg1)) := first_src (W0 m ρ c)
theorem dst1 : W1 m ρ c (Proc.devRef .tc main_v6) = dstOf (m ((c : Thread nD τ).loc main_arg1)) := first_dst (W0 m ρ c)
theorem norm1 : W1 m ρ c (Proc.devRef .tc main_v26)
    = normOf (srcOf (m ((c : Thread nD τ).loc main_arg1))) (dstOf (m ((c : Thread nD τ).loc main_arg1))) := first_norm (W0 m ρ c)
theorem left1 : W1 m ρ c (Proc.devRef .tc main_v27) = narrow S100000x256 (m ((c : Thread nD τ).loc main_arg0)) := first_left (W0 m ρ c)
theorem right1 : W1 m ρ c (Proc.devRef .tc main_v28) = narrow S256x128 (m ((c : Thread nD τ).loc main_arg2)) := first_right (W0 m ρ c)
theorem bias1 : W1 m ρ c (Proc.devRef .tc main_arg3) = m ((c : Thread nD τ).loc main_arg3) := first_arg3 (W0 m ρ c)
theorem weights1 : W1 m ρ c (Proc.devRef .tc main_arg4) = m ((c : Thread nD τ).loc main_arg4) := first_arg4 (W0 m ρ c)
theorem biasTwo1 : W1 m ρ c (Proc.devRef .tc main_arg5) = m ((c : Thread nD τ).loc main_arg5) := first_arg5 (W0 m ρ c)

/-! ## When the first product is left -/

/-- The first product's output: the node features times the first weight matrix. -/
theorem prod2 : W2 m ρ c (Proc.devRef .tc main_v29)
    = rowsTimes (M := 100000) (K := 256) (N := 128) (m ((c : Thread nD τ).loc main_arg0)) (m ((c : Thread nD τ).loc main_arg2)) := by
  refine (W2_arr m ρ c 2).trans ((product0 (V1 m ρ) c).trans ?_)
  show (fun i => rowsTimes (M := 100000) (K := 256) (N := 128) (W1 m ρ c (Proc.devRef .tc main_v27)) (W1 m ρ c (Proc.devRef .tc main_v28)) i) = _
  rw [left1, right1]
  rfl

theorem src2 : W2 m ρ c (Proc.devRef .tc main_v3) = srcOf (m ((c : Thread nD τ).loc main_arg1)) :=
  (W2_of_ne m ρ c main_v3 (by decide)).trans (src1 m ρ c)
theorem dst2 : W2 m ρ c (Proc.devRef .tc main_v6) = dstOf (m ((c : Thread nD τ).loc main_arg1)) :=
  (W2_of_ne m ρ c main_v6 (by decide)).trans (dst1 m ρ c)
theorem norm2 : W2 m ρ c (Proc.devRef .tc main_v26)
    = normOf (srcOf (m ((c : Thread nD τ).loc main_arg1))) (dstOf (m ((c : Thread nD τ).loc main_arg1))) :=
  (W2_of_ne m ρ c main_v26 (by decide)).trans (norm1 m ρ c)
theorem bias2 : W2 m ρ c (Proc.devRef .tc main_arg3) = m ((c : Thread nD τ).loc main_arg3) :=
  (W2_of_ne m ρ c main_arg3 (by decide)).trans (bias1 m ρ c)
theorem weights2 : W2 m ρ c (Proc.devRef .tc main_arg4) = m ((c : Thread nD τ).loc main_arg4) :=
  (W2_of_ne m ρ c main_arg4 (by decide)).trans (weights1 m ρ c)
theorem biasTwo2 : W2 m ρ c (Proc.devRef .tc main_arg5) = m ((c : Thread nD τ).loc main_arg5) :=
  (W2_of_ne m ρ c main_arg5 (by decide)).trans (biasTwo1 m ρ c)

/-! ## When the second product is entered -/

/-- The hidden features: the rectified first aggregation of the first product. -/
def hidden : Reals S100000x128 :=
  rectify (spread128 (srcOf (m ((c : Thread nD τ).loc main_arg1))) (dstOf (m ((c : Thread nD τ).loc main_arg1)))
    (normOf (srcOf (m ((c : Thread nD τ).loc main_arg1))) (dstOf (m ((c : Thread nD τ).loc main_arg1))))
    (rowsTimes (M := 100000) (K := 256) (N := 128) (m ((c : Thread nD τ).loc main_arg0)) (m ((c : Thread nD τ).loc main_arg2)))
    (m ((c : Thread nD τ).loc main_arg3)))

theorem left5 : W5 m ρ c (Proc.devRef .tc main_v47) = narrow S100000x128 (hidden m c) := by
  refine (narrow_left (W4 m ρ c)).trans (congrArg (narrow S100000x128) ?_)
  refine (rect_out (W3 m ρ c)).trans (congrArg rectify ?_)
  refine (agg_out (W2 m ρ c)).trans ?_
  rw [src2, dst2, norm2, prod2, bias2]

theorem right5 : W5 m ρ c (Proc.devRef .tc main_v48) = narrow S128x64 (m ((c : Thread nD τ).loc main_arg4)) := by
  refine (narrow_right (W4 m ρ c)).trans (congrArg (narrow S128x64) ?_)
  exact (mid_arg4 (W2 m ρ c)).trans (weights2 m ρ c)

theorem src5 : W5 m ρ c (Proc.devRef .tc main_v3) = srcOf (m ((c : Thread nD τ).loc main_arg1)) :=
  (mid_src (W2 m ρ c)).trans (src2 m ρ c)
theorem dst5 : W5 m ρ c (Proc.devRef .tc main_v6) = dstOf (m ((c : Thread nD τ).loc main_arg1)) :=
  (mid_dst (W2 m ρ c)).trans (dst2 m ρ c)
theorem norm5 : W5 m ρ c (Proc.devRef .tc main_v26)
    = normOf (srcOf (m ((c : Thread nD τ).loc main_arg1))) (dstOf (m ((c : Thread nD τ).loc main_arg1))) :=
  (mid_norm (W2 m ρ c)).trans (norm2 m ρ c)
theorem biasTwo5 : W5 m ρ c (Proc.devRef .tc main_arg5) = m ((c : Thread nD τ).loc main_arg5) :=
  (mid_arg5 (W2 m ρ c)).trans (biasTwo2 m ρ c)

/-! ## When the second product is left -/

/-- The second product's output: the hidden features times the second weight matrix. -/
theorem prod6 : W6 m ρ c (Proc.devRef .tc main_v49)
    = rowsTimes (M := 100000) (K := 128) (N := 64) (hidden m c) (m ((c : Thread nD τ).loc main_arg4)) := by
  refine (W6_arr m ρ c 2).trans ((product1 (V5 m ρ) c).trans ?_)
  show (fun i => rowsTimes (M := 100000) (K := 128) (N := 64) (W5 m ρ c (Proc.devRef .tc main_v47)) (W5 m ρ c (Proc.devRef .tc main_v48)) i) = _
  rw [left5, right5]
  rfl

theorem src6 : W6 m ρ c (Proc.devRef .tc main_v3) = srcOf (m ((c : Thread nD τ).loc main_arg1)) :=
  (W6_of_ne m ρ c main_v3 (by decide)).trans (src5 m ρ c)
theorem dst6 : W6 m ρ c (Proc.devRef .tc main_v6) = dstOf (m ((c : Thread nD τ).loc main_arg1)) :=
  (W6_of_ne m ρ c main_v6 (by decide)).trans (dst5 m ρ c)
theorem norm6 : W6 m ρ c (Proc.devRef .tc main_v26)
    = normOf (srcOf (m ((c : Thread nD τ).loc main_arg1))) (dstOf (m ((c : Thread nD τ).loc main_arg1))) :=
  (W6_of_ne m ρ c main_v26 (by decide)).trans (norm5 m ρ c)
theorem biasTwo6 : W6 m ρ c (Proc.devRef .tc main_arg5) = m ((c : Thread nD τ).loc main_arg5) :=
  (W6_of_ne m ρ c main_arg5 (by decide)).trans (biasTwo5 m ρ c)

/-! ## At the return -/

/-- THE KERNEL'S RESULT is the two layers of its six arguments. -/
theorem result_eq : W7 m ρ c (Proc.devRef .tc main_v65)
    = gcn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (last_out (W6 m ρ c)).trans ?_
  rw [src6, dst6, norm6, prod6, biasTwo6]
  rfl

end Cert.KernelIdeal.Whole

end
-- ==== Proof.RefValue.lean ====
/-
  The reference computes the two layers.

  Its run ends with the result at the composition of its operations applied to the arguments. Those operations
  are, in order: the product x · w1 (a host contraction over the one shared axis: the sum over k of
  x (r, k) · w1 (k, j)), the sources, destinations and weights from the edge array, the first aggregation and its
  bias, the rectifier, the product with w2, the sources, destinations and weights again (the same functions of
  the same edge array), the second aggregation and its bias. With each contraction read as the product of
  arrays, that composition is `gcn` of the arguments, operation for operation.
-/
import proofs.«124159_j6691559047384_1_alg».proof.Proof.Gen.ReferenceIdeal.Run
import proofs.«124159_j6691559047384_1_alg».proof.Proof.Layers
import proofs.«124159_j6691559047384_1_alg».proof.Proof.LibRowsCols

set_option maxRecDepth 16384

noncomputable section

namespace Cert.ReferenceIdeal.Whole

open Cert.ReferenceIdeal Cert.KernelIdeal.Whole Cert.Dense
open Idealize.ShloMosaic Idealize.ShloMosaic.TcCoe Idealize.SL.Sem

/-- The reference's first contraction is rows times columns. -/
theorem rowsColsA : RowsCols (R := 100000) (K := 256) (N := 128) dot_S100000x256_S256x128_S100000x128_1_0_0_1_n_n :=
  ⟨rfl, rfl, fun _ _ => rfl, fun _ _ => rfl, fun _ _ => rfl, fun _ _ => rfl⟩

/-- So is its second. -/
theorem rowsColsB : RowsCols (R := 100000) (K := 128) (N := 64) dot_S100000x128_S128x64_S100000x64_1_0_0_1_n_n :=
  ⟨rfl, rfl, fun _ _ => rfl, fun _ _ => rfl, fun _ _ => rfl, fun _ _ => rfl⟩

set_option maxHeartbeats 2000000 in
/-- The reference's result is the two layers of its arguments. -/
theorem result_eq (m : (ℓ : Loc nD τ sig) → Buf (Elt Ideal) ℓ) (c : Dev nD) :
    Value.res_main_v88 (F := Ideal) m c
      = gcn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold gcn
  rw [← dotGeneral_eq rowsColsA none, ← dotGeneral_eq rowsColsB none]
  unfold Value.res_main_v88
  rfl

end Cert.ReferenceIdeal.Whole

end
-- ==== Proof.lean ====
/-
  A two-layer graph convolution on 100000 nodes and 1600000 edges, its two dense products computed by a kernel one
  block of 5000 rows at a time, against the same network written with plain array operations.

  Both programs compute, from node features x, an edge array, weights w1, w2 and biases b1, b2,

      spread ( max (spread (x · w1) + b1, 0) · w2 ) + b2,

  where `spread h` adds into each node's row the rows of `h` at its in-neighbours (itself included), each weighted
  by `deg(src)^(-1/2) · deg(dst)^(-1/2)`. Every host operation around the products is the same in the two programs,
  in the same order. They differ only in how a product is made: the kernel casts its operands to bf16 (the identity
  on the extended reals) and multiplies one block of rows at a time into a zero accumulator; the reference
  contracts the whole arrays at once. Rows of a product are products of rows, and the twenty blocks tile the
  output, so both are the sum over k of left (r, k) · right (k, j), the same sum in the same order: no entry needs
  to be finite, and the precondition is not used.

  The three programs run and leave their arguments unchanged (the kernels' frames, and the reference's run with
  its result dropped); the idealization rewrote nothing; the results agree (`algebraic`).
-/
import proofs.«124159_j6691559047384_1_alg».proof.Defs
import proofs.«124159_j6691559047384_1_alg».proof.Proof.Gen.Kernel
import proofs.«124159_j6691559047384_1_alg».proof.Proof.Gen.Kernel.Skeleton
import proofs.«124159_j6691559047384_1_alg».proof.Proof.Gen.Kernel.Launch
import proofs.«124159_j6691559047384_1_alg».proof.Proof.Gen.Kernel.Points
import proofs.«124159_j6691559047384_1_alg».proof.Proof.Gen.Kernel.Frame
import proofs.«124159_j6691559047384_1_alg».proof.Proof.Gen.KernelIdeal
import proofs.«124159_j6691559047384_1_alg».proof.Proof.Gen.KernelIdeal.Skeleton
import proofs.«124159_j6691559047384_1_alg».proof.Proof.Gen.KernelIdeal.Launch
import proofs.«124159_j6691559047384_1_alg».proof.Proof.Gen.KernelIdeal.Points
import proofs.«124159_j6691559047384_1_alg».proof.Proof.Gen.KernelIdeal.Frame
import proofs.«124159_j6691559047384_1_alg».proof.Proof.Gen.ReferenceIdeal
import proofs.«124159_j6691559047384_1_alg».proof.Proof.Gen.Pre_finite_inputs
import proofs.«124159_j6691559047384_1_alg».proof.Proof.Gen.ReferenceIdeal.Run
import Idealize.ShloMosaic.Adequacy
import Idealize.ShloMosaic.Init
import proofs.«124159_j6691559047384_1_alg».proof.Proof.KernelRun
import proofs.«124159_j6691559047384_1_alg».proof.Proof.KernelValue
import proofs.«124159_j6691559047384_1_alg».proof.Proof.RefValue

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the two layers of those arguments. -/
theorem algebraic : Cert.algebraic_KernelIdeal_ReferenceIdeal := by
  intro m ρ m' ρ' _ hagree
  refine ⟨fun c => Cert.KernelIdeal.Whole.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Whole.result_eq m ρ c), (h c).2⟩)
      (Cert.KernelIdeal.Whole.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Whole.result_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
